-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S8x4096x128 : Shape := ⟨3, ![8, 4096, 128]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn {F : FTy → Type} [FloatOps F] (main_arg0 : FVec F S8x4096x4096 .f32) (main_arg1 : FVec F S8x4096x128 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x4096 : Shape := ⟨3, ![8, 4096, 4096]⟩
abbrev S8x4096x128 : Shape := ⟨3, ![8, 4096, 128]⟩
abbrev S1x2048x1024 : Shape := ⟨3, ![1, 2048, 1024]⟩
abbrev S1x4096x128 : Shape := ⟨3, ![1, 4096, 128]⟩
abbrev S1x2048x128 : Shape := ⟨3, ![1, 2048, 128]⟩
abbrev S2048x128 : Shape := ⟨2, ![2048, 128]⟩
abbrev S2048x1024 : Shape := ⟨2, ![2048, 1024]⟩
abbrev S1x1024x128 : Shape := ⟨3, ![1, 1024, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x4096, .f32⟩
  | .hbm, ⟨1, _⟩ => ⟨S8x4096x128, .f32⟩
  | .hbm, ⟨2, _⟩ => ⟨S8x4096x128, .f32⟩
  | .local _ .vmem, ⟨0, _⟩ => ⟨S1x2048x1024, .f32⟩
  | .local _ .vmem, ⟨1, _⟩ => ⟨S1x2048x1024, .f32⟩
  | .local _ .vmem, ⟨2, _⟩ => ⟨S1x4096x128, .f32⟩
  | .local _ .vmem, ⟨3, _⟩ => ⟨S1x4096x128, .f32⟩
  | .local _ .vmem, ⟨4, _⟩ => ⟨S1x2048x128, .f32⟩
  | .local _ .vmem, ⟨5, _⟩ => ⟨S1x2048x128, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_mult1 (i : grid0.Coords) : BitVec 32 :=
  let arg2 : BitVec 32 := BitVec.ofNat 32 (i 2).val
  let c1024_i32 : BitVec 32 := 1024#32
  let v6 : BitVec 32 := Scalar.muli arg2 c1024_i32
  v6
def k0_off1 (i : grid0.Coords) : Fin 3 → Nat :=
  let c0_3 : Index := 0#32
  let arg2 : BitVec 32 := BitVec.ofNat 32 (i 2).val
  let c1024_i32 : BitVec 32 := 1024#32
  let v6 : BitVec 32 := Scalar.muli arg2 c1024_i32
  let v7 : BitVec 32 := v6
  let v8 : Index := Scalar.indexCast v7
  let c0_4 : Index := 0#32
  ![0, v8.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  h_S1x1024x128 : 0 < S1x1024x128.numel
  shapeCasts_S1x1024x128_S1024x128 : S1x1024x128.ShapeCasts S1024x128
  dot_S2048x1024_S1024x128_S2048x128_1_0_0_1_n_n_wf : DotDims.WF S2048x1024 S1024x128 S2048x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x128.size a ≤ S1x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x4096.size a
  hwx0_0 : ∀ i : grid0.Coords, EltTy.bits .f32 = 32 ∨ (Rect.block (s := S8x4096x4096) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x4096x128.size a
  hwx0_1 : ∀ i : grid0.Coords, EltTy.bits .f32 = 32 ∨ (Rect.block (s := S8x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x4096x128.size a
  hwx0_2 : ∀ i : grid0.Coords, EltTy.bits .f32 = 32 ∨ (Rect.block (s := S8x4096x128) S1x2048x128.size (cc0_transform_2 i) (hinb0_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x4096 : Shape := ⟨3, ![8, 4096, 4096]⟩
abbrev S8x4096x128 : Shape := ⟨3, ![8, 4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S8x4096x128, .f32⟩
  | .hbm, ⟨2, _⟩ => ⟨S8x4096x128, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x4096_S8x4096x128_S8x4096x128_2_1_1_2_0_0_wf : DotDims.WF S8x4096x4096 S8x4096x128 S8x4096x128 [2] [1] [1] [2] [0] [0]

variable [Facts₀]

def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.Visit.lean ====
/-
  What one visit of a grid point leaves in the output block.

  The grid is (batch b, row block i, K chunk k), K innermost. The output block (b, i) stays in its staging buffer over the
  four visits k = 0..3. At k = 0 the body first stores the zero block and reads it back; at every k it adds to what the
  buffer holds the product of the left block A[b, 2048 i .. , 1024 k ..] with rows 1024 k .. 1024 k + 1023 of the right block
  B[b], which it loads as a part of the whole B[b] block held in its staging buffer. So a visit leaves
  "held + A_blk · B_chunk", where "held" is the zero block at k = 0.
-/
import proofs.«128403_j7284264534722_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Visit

open Cert.KernelIdeal Cert.KernelIdeal.Gen

variable {F : FTy → Type} [FloatOps F]

theorem hz : (![0, 0, 0] : Fin 3 → Nat) = fun _ => 0 := funext fun a => by fin_cases a <;> rfl

/-- The 1024 rows of the right block that the visit at coordinates `i` loads: rows `1024 k ..` of the whole B[b] block. -/
abbrev rhsChunk (i : grid0.Coords) (x1 : Vec F S1x4096x128 .f32) : Vec F S1x1024x128 .f32 :=
  View.ld x1 (Rect.unit (s := S1x4096x128) (k0_off1 i) S1x1024x128.size (k0_off1_inb i))

/-- A visit with k ≠ 0 leaves, in the buffer holding `xo`, the body's one covering store: `xo + x0 · chunk`. -/
theorem out_B (c : Dev nD) (i : grid0.Coords) (a3 : Memref sig .tc .vmem S1x2048x1024 .f32) (h3 : a3.IsWhole)
    (a4 : Memref sig .tc .vmem S1x4096x128 .f32) (h4 : a4.IsWhole) (a5 : Memref sig .tc .vmem S1x2048x128 .f32) (h5 : a5.IsWhole)
    (hc : ¬cond0_0 i) (x0 : Vec F S1x2048x1024 .f32) (x1 : Vec F S1x4096x128 .f32) (xo : Vec F S1x2048x128 .f32) :
    out0_B_2 c i a3 h3 a4 h4 a5 h5 hc x0 x1 xo = k0_pay2 x0 (rhsChunk i x1) xo := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread, View.ld_unit_zero (S := S1x2048x128) hz,
    View.ld_unit_zero (S := S1x2048x1024) hz]

/-- The visit with k = 0 stores the zero block first and reads it back, so it leaves `0 + x0 · chunk`. -/
theorem out_A (c : Dev nD) (i : grid0.Coords) (a3 : Memref sig .tc .vmem S1x2048x1024 .f32) (h3 : a3.IsWhole)
    (a4 : Memref sig .tc .vmem S1x4096x128 .f32) (h4 : a4.IsWhole) (a5 : Memref sig .tc .vmem S1x2048x128 .f32) (h5 : a5.IsWhole)
    (hc : cond0_0 i) (x0 : Vec F S1x2048x1024 .f32) (x1 : Vec F S1x4096x128 .f32) :
    out0_A_2 c i a3 h3 a4 h4 a5 h5 hc x0 x1 = k0_pay2 x0 (rhsChunk i x1) (k0_pay1 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x2048x128) hz, View.readCov_unit_zero (S := S1x2048x128) _ hz]
  simp only [View.readAt_eq_ld, h3.read_unread, h4.read_unread, View.ld_unit_zero (S := S1x2048x1024) hz]
  rfl

end Cert.KernelIdeal.Visit

end
-- ==== Proof.Blocks.lean ====
/-
  Where a visit's blocks sit in the argument arrays.

  Grid point t (0 ≤ t < 64) is (batch b, row block i, K chunk k) with t = 8 b + 4 i + k. The left window's block at t is
  A[b, 2048 i .. 2048 i + 2047, 1024 k .. 1024 k + 1023]; the right window's block is the whole B[b], of which the body
  loads rows 1024 k .. 1024 k + 1023; the output block is C[b, 2048 i .. 2048 i + 2047, :].
-/
import proofs.«128403_j7284264534722_2_alg».proof.Proof.Visit

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ)

/-- The three index maps and the body's row offset into the right block, at every grid point, in terms of
    b = t / 8, i = t / 4 mod 2, k = t mod 4 (decided over the 64 points). -/
theorem index_facts : ∀ t : Fin cfg0.N,
    win0_0.index t (0 : Fin 3) = t.val / 8 ∧ win0_0.index t (1 : Fin 3) = t.val / 4 % 2 ∧ win0_0.index t (2 : Fin 3) = t.val % 4
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = t.val / 4 % 2 ∧ win0_2.index t (2 : Fin 3) = 0
    ∧ k0_off1 (grid0.coords t) (0 : Fin 3) = 0 ∧ k0_off1 (grid0.coords t) (1 : Fin 3) = 1024 * (t.val % 4)
    ∧ k0_off1 (grid0.coords t) (2 : Fin 3) = 0 :=
  (by decide +kernel : ∀ t : Fin grid0.N, _)

/-- The left block at point t, at (0, r, j), is A[b, 2048 i + r, 1024 k + j]. -/
theorem lhs_block_apply (c : Dev nD) (t : Fin cfg0.N) (y : S1x2048x1024.Idx) (i : S8x4096x4096.Idx)
    (h0 : (i 0).val = t.val / 8) (h1 : (i 1).val = 2048 * (t.val / 4 % 2) + (y 1).val)
    (h2 : (i 2).val = 1024 * (t.val % 4) + (y 2).val) :
    (iblk m c 0 t : Vec F S1x2048x1024 .f32) y = m ((c : Thread nD τ).loc main_arg0) i := by
  obtain ⟨e0, e1, e2, -⟩ := index_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 1024 + 1 * (y 2).val = (i 2).val; omega

/-- The rows of the right block that point t loads, at (0, j, n), are B[b, 1024 k + j, n]. -/
theorem rhs_chunk_apply (c : Dev nD) (t : Fin cfg0.N) (y : S1x1024x128.Idx) (i : S8x4096x128.Idx)
    (h0 : (i 0).val = t.val / 8) (h1 : (i 1).val = 1024 * (t.val % 4) + (y 1).val) (h2 : (i 2).val = (y 2).val) :
    Visit.rhsChunk (grid0.coords t) (iblk m c 1 t : Vec F S1x4096x128 .f32) y = m ((c : Thread nD τ).loc main_arg1) i := by
  obtain ⟨-, -, -, e0, e1, e2, -, -, -, o0, o1, o2⟩ := index_facts t
  have hy0 : (y 0).val < 1 := (y 0).isLt
  show (iblk m c 1 t : Vec F S1x4096x128 .f32) _ = _
  unfold iblk
  rw [View.read_apply]
  show V m c main_arg1 _ = m (c.tc.loc main_arg1) _
  unfold V
  congr 1
  funext a
  apply Fin.ext
  match a with
  | ⟨0, _⟩ => show win0_1.index t (0 : Fin 3) * 1 + 1 * (k0_off1 (grid0.coords t) (0 : Fin 3) + 1 * (y 0).val) = (i 0).val; omega
  | ⟨1, _⟩ => show win0_1.index t (1 : Fin 3) * 4096 + 1 * (k0_off1 (grid0.coords t) (1 : Fin 3) + 1 * (y 1).val) = (i 1).val; omega
  | ⟨2, _⟩ => show win0_1.index t (2 : Fin 3) * 128 + 1 * (k0_off1 (grid0.coords t) (2 : Fin 3) + 1 * (y 2).val) = (i 2).val; omega

end Cert.KernelIdeal.Blocks

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.VisitEntry.lean ====
/-
  One visit's arithmetic at an entry, on the extended reals.

  Read at F := Ideal the conversions to bf16 are the identity and the matrix unit's product into the zero accumulator is
  the plain sum of products. So the block a visit stores has, at row r and column n,
      held[r, n] + ∑ j < 1024, lhs[r, j] · rhs[j, n],
  where lhs is the [2048, 1024] left block, rhs the 1024 loaded rows of the right block, and held what the output
  buffer held before (every entry zero at the first visit of a block).
-/
import proofs.«128403_j7284264534722_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«128403_j7284264534722_2_alg».proof.Proof.LibPlainDot

noncomputable section

open Idealize.ShloMosaic Idealize.ShloMosaic.ValueIdx

namespace Cert.KernelIdeal.VisitEntry

open Cert.KernelIdeal Cert.KernelIdeal.Gen

/-- Every entry of the block stored at the first visit is zero. -/
theorem zero_apply (u : Fin 1) (r : Fin 2048) (n : Fin 128) : k0_pay1 (F := Ideal) (ix3 u r n) = 0 := by
  unfold k0_pay1
  refine (shapeCast_ab_1ab_apply _ _ u r n).trans ?_
  exact Ideal.ofBits_zero_f32

/-- The block a visit stores, at row `r` and column `n`: what the buffer held there plus the 1024-term inner product
    of row `r` of the left block with column `n` of the loaded rows of the right block. -/
theorem visit_apply (x0 : Vec Ideal S1x2048x1024 .f32) (v9 : Vec Ideal S1x1024x128 .f32) (xo : Vec Ideal S1x2048x128 .f32)
    (u : Fin 1) (r : Fin 2048) (n : Fin 128) :
    k0_pay2 x0 v9 xo (ix3 u r n)
      = xo (ix3 (0 : Fin 1) r n) + ∑ j : Fin 1024, x0 (ix3 (0 : Fin 1) r j) * v9 (ix3 (0 : Fin 1) j n) := by
  unfold k0_pay2
  refine (shapeCast_ab_1ab_apply _ _ u r n).trans ?_
  refine (addf_apply _ _ _).trans ?_
  refine congrArg₂ (· + ·) (shapeCast_1ab_ab_apply _ _ r n) ?_
  refine (PlainDot.matmul_zero_apply _ rfl none _ _ (ix2 r n)).trans ?_
  refine Finset.sum_congr rfl fun j _ => ?_
  exact congrArg₂ (· * ·) (shapeCast_1ab_ab_apply _ _ r j) (shapeCast_1ab_ab_apply _ _ j n)

end Cert.KernelIdeal.VisitEntry

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.BatchedProduct.lean ====
/-
  The batched matrix product C[b] = A[b] · B[b] on the extended reals, entry by entry, and its contraction axis cut in
  four chunks of 1024.

  Entry (b, r, n) of the product is the sum over k < 4096 of A[b, r, k] · B[b, k, n]. The partial sum over the first
  s chunks is what an accumulator holds after s chunk products have been added; after the fourth it is the entry.
  Only associativity and commutativity of + on the extended reals are used: no entry needs to be finite.
-/
import Idealize.ShloMosaic.PureOps.Ideal
import Idealize.ShloMosaic.Lib.ValueIdx
import proofs.«128403_j7284264534722_2_alg».proof.Proof.LibChunkedSum

noncomputable section

namespace Cert.BatchedProduct

open Idealize.ShloMosaic Idealize.ShloMosaic.ValueIdx Cert.Lib.ChunkedSum

/-- The left operand's shape, [8, 4096, 4096], and the right operand's and the product's, [8, 4096, 128]. -/
abbrev SA : Shape := ⟨3, ![8, 4096, 4096]⟩
abbrev SB : Shape := ⟨3, ![8, 4096, 128]⟩

variable (A : SA.Idx → EReal) (B : SB.Idx → EReal)

/-- Term `j` of entry (b, r, n): A[b, r, j] · B[b, j, n] (zero past the axis, so that it is a sequence over ℕ). -/
def term (b : Fin 8) (r : Fin 4096) (n : Fin 128) (j : ℕ) : EReal :=
  if h : j < 4096 then A (ix3 b r ⟨j, h⟩) * B (ix3 b ⟨j, h⟩ n) else 0

/-- The product at an entry: the sum over the whole contraction axis. -/
def prod (i : SB.Idx) : EReal := ∑ k : Fin 4096, A (ix3 (i 0) (i 1) k) * B (ix3 (i 0) k (i 2))

/-- The sum of the first `s` chunks of 1024 terms of entry (b, r, n). -/
def partialSum (b : Fin 8) (r : Fin 4096) (n : Fin 128) (s : ℕ) : EReal :=
  ∑ p ∈ Finset.range s, chunk 1024 (term A B b r n) p

/-- A term inside the axis. -/
theorem term_of_lt (b : Fin 8) (r : Fin 4096) (n : Fin 128) (j : ℕ) (h : j < 4096) :
    term A B b r n j = A (ix3 b r ⟨j, h⟩) * B (ix3 b ⟨j, h⟩ n) := dif_pos h

/-- Starting from zero, the first chunk. -/
theorem partialSum_one (b : Fin 8) (r : Fin 4096) (n : Fin 128) :
    (0 : EReal) + chunk 1024 (term A B b r n) 0 = partialSum A B b r n 1 := by
  rw [zero_add, partialSum, Finset.sum_range_one]

/-- One more chunk. -/
theorem partialSum_succ (b : Fin 8) (r : Fin 4096) (n : Fin 128) (s : ℕ) :
    partialSum A B b r n s + chunk 1024 (term A B b r n) s = partialSum A B b r n (s + 1) := by
  rw [partialSum, partialSum, Finset.sum_range_succ]

/-- Four chunks are the whole axis. -/
theorem partialSum_four (b : Fin 8) (r : Fin 4096) (n : Fin 128) :
    partialSum A B b r n 4 = prod A B (ix3 b r n) := by
  rw [partialSum, sum_chunks 4 1024]
  exact Finset.sum_congr rfl fun k _ => term_of_lt A B b r n k.val k.isLt

end Cert.BatchedProduct

end
-- ==== Proof.Running.lean ====
/-
  What the output block holds after each visit: the partial sums of the product.

  After the visit at grid point t = 8 b + 4 i + k the staging buffer of output block (b, i) holds, at row r and column n,
  the sum of the first k + 1 chunks of 1024 terms of entry (b, 2048 i + r, n) of A[b] · B[b]. By induction on the point:
  the visit with k = 0 starts from the zero block, every later visit adds chunk k to what the visit before left.
-/
import proofs.«128403_j7284264534722_2_alg».proof.Proof.Blocks
import proofs.«128403_j7284264534722_2_alg».proof.Proof.VisitEntry
import proofs.«128403_j7284264534722_2_alg».proof.Proof.BatchedProduct

noncomputable section

open Idealize.ShloMosaic Idealize.ShloMosaic.TcCoe Idealize.SL.Sem Idealize.ShloMosaic.ValueIdx

namespace Cert.KernelIdeal.Running

open Cert.KernelIdeal Cert.KernelIdeal.Gen Cert.BatchedProduct Cert.Lib.ChunkedSum

variable (m : (ℓ : Loc nD τ sig) → Buf (Elt Ideal) ℓ)

/-- The two argument arrays on core `c`, as launched. -/
abbrev argA (c : Dev nD) : SA.Idx → EReal := m ((c : Thread nD τ).loc main_arg0)
abbrev argB (c : Dev nD) : SB.Idx → EReal := m ((c : Thread nD τ).loc main_arg1)

/-- The left window's block and the right window's block at point `t`, at their literal shapes. -/
abbrev lhsBlock (c : Dev nD) (t : Fin cfg0.N) : Vec Ideal S1x2048x1024 .f32 := iblk m c 0 t
abbrev rhsBlock (c : Dev nD) (t : Fin cfg0.N) : Vec Ideal S1x4096x128 .f32 := iblk m c 1 t

/-- The inner product a visit adds at (r, n) is chunk k of the terms of entry (b, 2048 i + r, n). -/
theorem visit_chunk (c : Dev nD) (t : Fin cfg0.N) (r : Fin 2048) (n : Fin 128) (b : Fin 8) (R : Fin 4096)
    (hb : b.val = t.val / 8) (hR : R.val = 2048 * (t.val / 4 % 2) + r.val) :
    ∑ j : Fin 1024, lhsBlock m c t (ix3 (0 : Fin 1) r j)
        * Visit.rhsChunk (grid0.coords t) (rhsBlock m c t) (ix3 (0 : Fin 1) j n)
      = chunk 1024 (term (argA m c) (argB m c) b R n) (t.val % 4) := by
  unfold chunk
  refine Finset.sum_congr rfl fun j _ => ?_
  have hj : j.val < 1024 := j.isLt
  have hlt : 1024 * (t.val % 4) + j.val < 4096 := by omega
  rw [term_of_lt _ _ b R n _ hlt]
  exact congrArg₂ (· * ·)
    (Blocks.lhs_block_apply m c t (ix3 (0 : Fin 1) r j) (ix3 b R ⟨1024 * (t.val % 4) + j.val, hlt⟩) hb hR rfl)
    (Blocks.rhs_chunk_apply m c t (ix3 (0 : Fin 1) j n) (ix3 b ⟨1024 * (t.val % 4) + j.val, hlt⟩ n) hb rfl rfl)

/-- After the visit at point `p`, entry (r, n) of the staged output block is the sum of the first `p % 4 + 1` chunks. -/
theorem running (c : Dev nD) : ∀ (p : ℕ) (h : p < cfg0.N) (r : Fin 2048) (n : Fin 128) (b : Fin 8) (R : Fin 4096),
    b.val = p / 8 → R.val = 2048 * (p / 4 % 2) + r.val →
    outsAt0 m c p h (ix3 (0 : Fin 1) r n) = partialSum (argA m c) (argB m c) b R n (p % 4 + 1)
  | 0, h, r, n, b, R, hb, hR => by
    rw [outsAt0_A m c ⟨0, h⟩ rfl, Visit.out_A]
    refine (VisitEntry.visit_apply _ _ _ 0 r n).trans ?_
    rw [VisitEntry.zero_apply]
    refine (congrArg (fun x => (0 : EReal) + x) (visit_chunk m c ⟨0, h⟩ r n b R hb hR)).trans ?_
    exact partialSum_one _ _ b R n
  | p + 1, h, r, n, b, R, hb, hR => by
    by_cases h0 : (p + 1) % 4 = 0
    · rw [outsAt0_A m c ⟨p + 1, h⟩ h0, Visit.out_A]
      refine (VisitEntry.visit_apply _ _ _ 0 r n).trans ?_
      rw [VisitEntry.zero_apply]
      refine (congrArg (fun x => (0 : EReal) + x) (visit_chunk m c ⟨p + 1, h⟩ r n b R hb hR)).trans ?_
      show (0 : EReal) + chunk 1024 _ ((p + 1) % 4) = _
      rw [h0]
      exact partialSum_one _ _ b R n
    · rw [outsAt0_B m c ⟨p + 1, h⟩ h0, Visit.out_B]
      refine (VisitEntry.visit_apply _ _ _ 0 r n).trans ?_
      have ih := running c p (Nat.lt_of_succ_lt h) r n b R (by omega) (by omega)
      refine (congrArg₂ (· + ·) ih (visit_chunk m c ⟨p + 1, h⟩ r n b R hb hR)).trans ?_
      show partialSum _ _ b R n (p % 4 + 1) + chunk 1024 _ ((p + 1) % 4) = _
      rw [show (p + 1) % 4 = p % 4 + 1 from by omega]
      exact partialSum_succ _ _ b R n _

end Cert.KernelIdeal.Running

end
-- ==== Proof.Result.lean ====
/-
  The result array after the run is the batched product.

  Output block (b, i) is written back once, after its fourth visit (points with t mod 4 = 3), when its staging buffer
  holds the sum of all four chunks, that is the product's entries (b, 2048 i + r, n). The sixteen blocks tile
  C[8, 4096, 128]: entry (b, R, n) lies in the block written back at point 8 b + 4 (R / 2048) + 3.
-/
import proofs.«128403_j7284264534722_2_alg».proof.Proof.Running
import proofs.«128403_j7284264534722_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.BatchedProduct Cert.KernelIdeal.Running

variable (m : (ℓ : Loc nD τ sig) → Buf (Elt Ideal) ℓ) (ρ : Dev nD → PrngReg)

/-- The product of the two argument arrays of core `c`, as contents of the result array. -/
abbrev product (c : Dev nD) : Buf (Elt Ideal) ((c : Thread nD τ).loc main_v0) :=
  fun i => prod (argA m c) (argB m c) i

/-- What a writing-back point writes is its block of the product. -/
theorem flushed_eq (c : Dev nD) (t : Fin cfg0.N) (hf : (cfg0.win 2).flush t = true) :
    (dats m 0 c).flushed 2 t = ((cfg0.win 2).blk t).view.read (Elt Ideal) (product m c) := by
  have h3 : t.val % 4 = 3 := (flush0_2 t).mp hf
  have hN : t.val < 64 := lt_of_lt_of_eq t.isLt (show cfg0.N = 64 from N_0)
  obtain ⟨-, -, -, -, -, -, e0, e1, e2, -⟩ := Blocks.index_facts t
  rw [Value.flushed2]
  funext y
  revert y
  show ∀ y : S1x2048x128.Idx, outsAt0 m c t.val t.isLt y = product m c (((cfg0.win 2).blk t).view.emb y)
  intro y
  obtain ⟨u, r, n, rfl⟩ : ∃ (u : Fin 1) (r : Fin 2048) (n : Fin 128), y = ix3 u r n := ⟨y 0, y 1, y 2, eq_ix3 y⟩
  obtain rfl : u = 0 := Subsingleton.elim _ _
  have hr : r.val < 2048 := r.isLt
  rw [running m c t.val t.isLt r n ⟨t.val / 8, by omega⟩ ⟨2048 * (t.val / 4 % 2) + r.val, by omega⟩ rfl rfl,
    show t.val % 4 + 1 = 4 from by omega, partialSum_four]
  show prod (argA m c) (argB m c) _ = prod (argA m c) (argB m c) _
  congr 1
  funext a
  apply Fin.ext
  match a with
  | ⟨0, _⟩ => show t.val / 8 = win0_2.index t (0 : Fin 3) * 1 + 1 * 0; omega
  | ⟨1, _⟩ => show 2048 * (t.val / 4 % 2) + r.val = win0_2.index t (1 : Fin 3) * 2048 + 1 * r.val; omega
  | ⟨2, _⟩ => show n.val = win0_2.index t (2 : Fin 3) * 128 + 1 * n.val; omega

/-- An entry is in point `t`'s output block iff each coordinate is in the block's range on its axis. -/
theorem mem_blk (t : Fin cfg0.N) (i : S8x4096x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v0).slice (win0_2.rect t)).set ↔ _
  rw [View.set_slice_whole, Rect.mem_set_unit]
  exact Iff.rfl

/-- Every entry of the result array lies in a block that is written back. -/
theorem cover (i : S8x4096x128.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 128 := (i 2).isLt
  have hN : cfg0.N = 64 := N_0
  obtain ⟨t, ht⟩ : ∃ t : Fin cfg0.N, t.val = 8 * (i 0).val + 4 * ((i 1).val / 2048) + 3 :=
    ⟨⟨8 * (i 0).val + 4 * ((i 1).val / 2048) + 3, by rw [hN]; omega⟩, rfl⟩
  obtain ⟨-, -, -, -, -, -, e0, e1, e2, -⟩ := Blocks.index_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 128 ≤ (i 2).val ∧ (i 2).val < win0_2.index t (2 : Fin 3) * 128 + 128; omega

/-- So the result array ends holding the product. -/
theorem final (c : Dev nD) : (dats m 0 c).arrAt 2 cfg0.N = product m c :=
  (dats m 0 c).arrAt_eq_of_cover 2 (product m c) (flushed_eq m c) cover

/-- The kernel's run, read: the result array at the product of the arguments, the arguments unchanged. -/
theorem run : θ_run defs (onTc (τ := τ) (main (F := Ideal))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.Reference.lean ====
/-
  The reference's batched `dot_general` (batch axis 0, contracting the left operand's last axis with the right
  operand's middle axis) is, entry by entry on the extended reals, the batched product: the sum over k < 4096 of
  A[b, r, k] · B[b, k, n].
-/
import proofs.«128403_j7284264534722_2_alg».proof.Proof.Gen.ReferenceIdeal.Read
import proofs.«128403_j7284264534722_2_alg».proof.Proof.BatchedProduct

noncomputable section

open Idealize.ShloMosaic Idealize.ShloMosaic.ValueIdx

namespace Cert.ReferenceIdeal.RefValue

open Cert.ReferenceIdeal Cert.BatchedProduct

/-- The reference's one operation at an entry is the product's entry. -/
theorem reference_eq (x0 : (⟨S8x4096x4096, .f32⟩ : BufTy).Contents (Elt Ideal)) (x1 : (⟨S8x4096x128, .f32⟩ : BufTy).Contents (Elt Ideal)) :
    Read.val_main_v0 (F := Ideal) x0 x1 = fun i => prod x0 x1 i := by
  funext i
  rw [Read.val_main_v0_apply]
  unfold prod
  refine Finset.sum_congr rfl fun k _ => ?_
  have el : Read.lidx_main_v0 i k = ix3 (i 0) (i 1) k :=
    funext fun a => Fin.ext (by match a with | ⟨0, _⟩ => rfl | ⟨1, _⟩ => rfl | ⟨2, _⟩ => rfl)
  have er : Read.ridx_main_v0 i k = ix3 (i 0) k (i 2) :=
    funext fun a => Fin.ext (by match a with | ⟨0, _⟩ => rfl | ⟨1, _⟩ => rfl | ⟨2, _⟩ => rfl)
  rw [el, er]
  rfl

end Cert.ReferenceIdeal.RefValue

end
-- ==== Proof.lean ====
/-
  A batched matrix product C[b] = A[b] · B[b] (A : [8, 4096, 4096], B : [8, 4096, 128]) computed block by block —
  grid (batch, row block of 2048, K chunk of 1024), the output block kept in place over the four K chunks and
  accumulated into, zeroed at the first chunk — against the reference's one batched `dot_general`.

  On the extended reals the conversions to bf16 are the identity and each block product is a plain sum of products, so
  an entry of the kernel's result is ((( 0 + chunk₀) + chunk₁) + chunk₂) + chunk₃ of the 4096 terms A[b, r, k] · B[b, k, n],
  the reference's entry their sum over k. These are equal by associativity and commutativity of + alone, which hold on
  all extended reals: the finiteness of the inputs is not used.

  The three frames are the generated ones (the reference's frame is its generated run with the result dropped); the
  idealization rewrote no operation, so that conjunct is trivial.
-/
import proofs.«128403_j7284264534722_2_alg».proof.Defs
import proofs.«128403_j7284264534722_2_alg».proof.Proof.Gen.Kernel
import proofs.«128403_j7284264534722_2_alg».proof.Proof.Gen.Kernel.Skeleton
import proofs.«128403_j7284264534722_2_alg».proof.Proof.Gen.Kernel.Launch
import proofs.«128403_j7284264534722_2_alg».proof.Proof.Gen.Kernel.Points
import proofs.«128403_j7284264534722_2_alg».proof.Proof.Gen.Kernel.Frame
import proofs.«128403_j7284264534722_2_alg».proof.Proof.Gen.KernelIdeal
import proofs.«128403_j7284264534722_2_alg».proof.Proof.Gen.KernelIdeal.Skeleton
import proofs.«128403_j7284264534722_2_alg».proof.Proof.Gen.KernelIdeal.Launch
import proofs.«128403_j7284264534722_2_alg».proof.Proof.Gen.KernelIdeal.Points
import proofs.«128403_j7284264534722_2_alg».proof.Proof.Gen.KernelIdeal.Frame
import proofs.«128403_j7284264534722_2_alg».proof.Proof.Gen.ReferenceIdeal
import proofs.«128403_j7284264534722_2_alg».proof.Proof.Gen.Pre_finite_inputs
import proofs.«128403_j7284264534722_2_alg».proof.Proof.Gen.KernelIdeal.Value
import proofs.«128403_j7284264534722_2_alg».proof.Proof.Gen.ReferenceIdeal.Run
import proofs.«128403_j7284264534722_2_alg».proof.Proof.Gen.ReferenceIdeal.Read
import proofs.«128403_j7284264534722_2_alg».proof.Proof.Result
import proofs.«128403_j7284264534722_2_alg».proof.Proof.Reference
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the batched product of the arguments: the kernel's four accumulated chunk sums per entry
    and the reference's one sum over the contraction axis are the same extended real. -/
theorem algebraic : Cert.algebraic_KernelIdeal_ReferenceIdeal := by
  intro m ρ m' ρ' _ hagree
  refine ⟨fun c => Cert.KernelIdeal.Result.product m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.reference_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
